-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v67)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v67) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v69) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S3x128x128 : Shape := ⟨3, ![3, 128, 128]⟩
abbrev S3x2x800000 : Shape := ⟨3, ![3, 2, 800000]⟩
abbrev S3x800000 : Shape := ⟨2, ![3, 800000]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S3x128x128 : S_.BroadcastsInDim S3x128x128 (![] : Fin 0 → Fin S3x128x128.rank)
  reducesTo_S3x128x128_S_d0_1_2 : S3x128x128.ReducesTo [0, 1, 2] S_
  bcast_S_S3x800000 : S_.BroadcastsInDim S3x800000 (![] : Fin 0 → Fin S3x800000.rank)
  reducesTo_S3x800000_S_d0_1 : S3x800000.ReducesTo [0, 1] S_

variable [Facts]

def fn {F : FTy → Type} [FloatOps F] (main_arg0 : FVec F S50000x128 .f32) (main_arg1 : FVec F S3x128x128 .f32) (main_arg2 : IVec S3x2x800000 32) (main_arg3 : FVec F S3x800000 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S3x128x128 .f32 := Host.absf main_arg1
  let main_cst_0 : FVec F S_ .f32 := constant S_ .f32 0x7F800000#32
  let main_v5 : FVec F S3x128x128 .f32 := broadcastInDim S3x128x128 ![] bcast_S_S3x128x128 main_cst_0
  let main_v6 : IVec S3x128x128 1 := cmpf .olt main_v4 main_v5
  let main_c_1 : IVec S_ 1 := constantI S_ 1 1#1
  let main_v7 : IVec S_ 1 := (fun x v => Host.reduce IntOp.andi x v reducesTo_S3x128x128_S_d0_1_2 h_S_) main_v6 main_c_1
  let main_v8 : IVec S_ 1 := andi main_v3 main_v7
  let main_v9 : FVec F S3x800000 .f32 := Host.absf main_arg3
  let main_cst_2 : FVec F S_ .f32 := constant S_ .f32 0x7F800000#32
  let main_v10 : FVec F S3x800000 .f32 := broadcastInDim S3x800000 ![] bcast_S_S3x800000 main_cst_2
  let main_v11 : IVec S3x800000 1 := cmpf .olt main_v9 main_v10
  let main_c_3 : IVec S_ 1 := constantI S_ 1 1#1
  let main_v12 : IVec S_ 1 := (fun x v => Host.reduce IntOp.andi x v reducesTo_S3x800000_S_d0_1 h_S_) main_v11 main_c_3
  let main_v13 : IVec S_ 1 := andi main_v8 main_v12
  main_v13
-- ==== Kernel.lean ====
abbrev S50000x128 : Shape := ⟨2, ![50000, 128]⟩
abbrev S3x128x128 : Shape := ⟨3, ![3, 128, 128]⟩
abbrev S3x2x800000 : Shape := ⟨3, ![3, 2, 800000]⟩
abbrev S3x800000 : Shape := ⟨2, ![3, 800000]⟩
abbrev S3x50000x128 : Shape := ⟨3, ![3, 50000, 128]⟩
abbrev S5000x128 : Shape := ⟨2, ![5000, 128]⟩
abbrev S1x128x128 : Shape := ⟨3, ![1, 128, 128]⟩
abbrev S1x5000x128 : Shape := ⟨3, ![1, 5000, 128]⟩
abbrev S128x128 : Shape := ⟨2, ![128, 128]⟩
abbrev S_ : Shape := ⟨0, ![]⟩
abbrev S1x50000x128 : Shape := ⟨3, ![1, 50000, 128]⟩
abbrev S1x1x800000 : Shape := ⟨3, ![1, 1, 800000]⟩
abbrev S800000 : Shape := ⟨1, ![800000]⟩
abbrev S800000x1 : Shape := ⟨2, ![800000, 1]⟩
abbrev S800000x128 : Shape := ⟨2, ![800000, 128]⟩
abbrev S1x800000 : Shape := ⟨2, ![1, 800000]⟩

abbrev nBuf : Space → Nat
  | .hbm => 82
  | .vmem => 6
  | .smem => 0
  | _ => 0

abbrev bufTy : (tb : Table) → Fin (tcTables nBuf tb) → BufTy
  | .hbm, ⟨0, _⟩ => ⟨S50000x128, .f32⟩
  | .hbm, ⟨1, _⟩ => ⟨S3x128x128, .f32⟩
  | .hbm, ⟨2, _⟩ => ⟨S3x2x800000, .i32⟩
  | .hbm, ⟨3, _⟩ => ⟨S3x800000, .f32⟩
  | .hbm, ⟨4, _⟩ => ⟨S3x50000x128, .f32⟩
  | .hbm, ⟨5, _⟩ => ⟨S_, .f32⟩
  | .hbm, ⟨6, _⟩ => ⟨S50000x128, .f32⟩
  | .hbm, ⟨7, _⟩ => ⟨S1x50000x128, .f32⟩
  | .hbm, ⟨8, _⟩ => ⟨S50000x128, .f32⟩
  | .hbm, ⟨9, _⟩ => ⟨S1x1x800000, .i32⟩
  | .hbm, ⟨10, _⟩ => ⟨S800000, .i32⟩
  | .hbm, ⟨11, _⟩ => ⟨S1x1x800000, .i32⟩
  | .hbm, ⟨12, _⟩ => ⟨S800000, .i32⟩
  | .hbm, ⟨13, _⟩ => ⟨S_, .i32⟩
  | .hbm, ⟨14, _⟩ => ⟨S800000, .i32⟩
  | .hbm, ⟨15, _⟩ => ⟨S800000, .i1⟩
  | .hbm, ⟨16, _⟩ => ⟨S_, .i32⟩
  | .hbm, ⟨17, _⟩ => ⟨S800000, .i32⟩
  | .hbm, ⟨18, _⟩ => ⟨S800000, .i32⟩
  | .hbm, ⟨19, _⟩ => ⟨S800000, .i32⟩
  | .hbm, ⟨20, _⟩ => ⟨S800000x1, .i32⟩
  | .hbm, ⟨21, _⟩ => ⟨S800000x128, .f32⟩
  | .hbm, ⟨22, _⟩ => ⟨S1x800000, .f32⟩
  | .hbm, ⟨23, _⟩ => ⟨S800000, .f32⟩
  | .hbm, ⟨24, _⟩ => ⟨S800000x1, .f32⟩
  | .hbm, ⟨25, _⟩ => ⟨S800000x128, .f32⟩
  | .hbm, ⟨26, _⟩ => ⟨S800000x128, .f32⟩
  | .hbm, ⟨27, _⟩ => ⟨S_, .f32⟩
  | .hbm, ⟨28, _⟩ => ⟨S50000x128, .f32⟩
  | .hbm, ⟨29, _⟩ => ⟨S800000x1, .i32⟩
  | .hbm, ⟨30, _⟩ => ⟨S50000x128, .f32⟩
  | .hbm, ⟨31, _⟩ => ⟨S50000x128, .f32⟩
  | .hbm, ⟨32, _⟩ => ⟨S1x50000x128, .f32⟩
  | .hbm, ⟨33, _⟩ => ⟨S50000x128, .f32⟩
  | .hbm, ⟨34, _⟩ => ⟨S1x1x800000, .i32⟩
  | .hbm, ⟨35, _⟩ => ⟨S800000, .i32⟩
  | .hbm, ⟨36, _⟩ => ⟨S1x1x800000, .i32⟩
  | .hbm, ⟨37, _⟩ => ⟨S800000, .i32⟩
  | .hbm, ⟨38, _⟩ => ⟨S_, .i32⟩
  | .hbm, ⟨39, _⟩ => ⟨S800000, .i32⟩
  | .hbm, ⟨40, _⟩ => ⟨S800000, .i1⟩
  | .hbm, ⟨41, _⟩ => ⟨S_, .i32⟩
  | .hbm, ⟨42, _⟩ => ⟨S800000, .i32⟩
  | .hbm, ⟨43, _⟩ => ⟨S800000, .i32⟩
  | .hbm, ⟨44, _⟩ => ⟨S800000, .i32⟩
  | .hbm, ⟨45, _⟩ => ⟨S800000x1, .i32⟩
  | .hbm, ⟨46, _⟩ => ⟨S800000x128, .f32⟩
  | .hbm, ⟨47, _⟩ => ⟨S1x800000, .f32⟩
  | .hbm, ⟨48, _⟩ => ⟨S800000, .f32⟩
  | .hbm, ⟨49, _⟩ => ⟨S800000x1, .f32⟩
  | .hbm, ⟨50, _⟩ => ⟨S800000x128, .f32⟩
  | .hbm, ⟨51, _⟩ => ⟨S800000x128, .f32⟩
  | .hbm, ⟨52, _⟩ => ⟨S_, .f32⟩
  | .hbm, ⟨53, _⟩ => ⟨S50000x128, .f32⟩
  | .hbm, ⟨54, _⟩ => ⟨S800000x1, .i32⟩
  | .hbm, ⟨55, _⟩ => ⟨S50000x128, .f32⟩
  | .hbm, ⟨56, _⟩ => ⟨S50000x128, .f32⟩
  | .hbm, ⟨57, _⟩ => ⟨S1x50000x128, .f32⟩
  | .hbm, ⟨58, _⟩ => ⟨S50000x128, .f32⟩
  | .hbm, ⟨59, _⟩ => ⟨S1x1x800000, .i32⟩
  | .hbm, ⟨60, _⟩ => ⟨S800000, .i32⟩
  | .hbm, ⟨61, _⟩ => ⟨S1x1x800000, .i32⟩
  | .hbm, ⟨62, _⟩ => ⟨S800000, .i32⟩
  | .hbm, ⟨63, _⟩ => ⟨S_, .i32⟩
  | .hbm, ⟨64, _⟩ => ⟨S800000, .i32⟩
  | .hbm, ⟨65, _⟩ => ⟨S800000, .i1⟩
  | .hbm, ⟨66, _⟩ => ⟨S_, .i32⟩
  | .hbm, ⟨67, _⟩ => ⟨S800000, .i32⟩
  | .hbm, ⟨68, _⟩ => ⟨S800000, .i32⟩
  | .hbm, ⟨69, _⟩ => ⟨S800000, .i32⟩
  | .hbm, ⟨70, _⟩ => ⟨S800000x1, .i32⟩
  | .hbm, ⟨71, _⟩ => ⟨S800000x128, .f32⟩
  | .hbm, ⟨72, _⟩ => ⟨S1x800000, .f32⟩
  | .hbm, ⟨73, _⟩ => ⟨S800000, .f32⟩
  | .hbm, ⟨74, _⟩ => ⟨S800000x1, .f32⟩
  | .hbm, ⟨75, _⟩ => ⟨S800000x128, .f32⟩
  | .hbm, ⟨76, _⟩ => ⟨S800000x128, .f32⟩
  | .hbm, ⟨77, _⟩ => ⟨S_, .f32⟩
  | .hbm, ⟨78, _⟩ => ⟨S50000x128, .f32⟩
  | .hbm, ⟨79, _⟩ => ⟨S800000x1, .i32⟩
  | .hbm, ⟨80, _⟩ => ⟨S50000x128, .f32⟩
  | .hbm, ⟨81, _⟩ => ⟨S50000x128, .f32⟩
  | .local _ .vmem, ⟨0, _⟩ => ⟨S5000x128, .f32⟩
  | .local _ .vmem, ⟨1, _⟩ => ⟨S5000x128, .f32⟩
  | .local _ .vmem, ⟨2, _⟩ => ⟨S1x128x128, .f32⟩
  | .local _ .vmem, ⟨3, _⟩ => ⟨S1x128x128, .f32⟩
  | .local _ .vmem, ⟨4, _⟩ => ⟨S1x5000x128, .f32⟩
  | .local _ .vmem, ⟨5, _⟩ => ⟨S1x5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_c : Ref sig .tc := ⟨.hbm, 13, rfl⟩
abbrev main_v8 : Ref sig .tc := ⟨.hbm, 14, rfl⟩
abbrev main_v9 : Ref sig .tc := ⟨.hbm, 15, rfl⟩
abbrev main_c_0 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_1 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_c_2 : Ref sig .tc := ⟨.hbm, 38, rfl⟩
abbrev main_v30 : Ref sig .tc := ⟨.hbm, 39, rfl⟩
abbrev main_v31 : Ref sig .tc := ⟨.hbm, 40, rfl⟩
abbrev main_c_3 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_cst_4 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_c_5 : Ref sig .tc := ⟨.hbm, 63, rfl⟩
abbrev main_v52 : Ref sig .tc := ⟨.hbm, 64, rfl⟩
abbrev main_v53 : Ref sig .tc := ⟨.hbm, 65, rfl⟩
abbrev main_c_6 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_cst_7 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![10, 3], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S1x128x128_S1x128x128_0_0_0 : ∀ a, (![0, 0, 0] : Fin 3 → Nat) a + S1x128x128.size a ≤ S1x128x128.size a
  h_S1x128x128 : 0 < S1x128x128.numel
  shapeCasts_S1x128x128_S128x128 : S1x128x128.ShapeCasts S128x128
  inb_S1x5000x128_S1x5000x128_0_0_0 : ∀ a, (![0, 0, 0] : Fin 3 → Nat) a + S1x5000x128.size a ≤ S1x5000x128.size a
  h_S1x5000x128 : 0 < S1x5000x128.numel
  shapeCasts_S1x5000x128_S5000x128 : S1x5000x128.ShapeCasts S5000x128
  shapeCasts_S5000x128_S1x5000x128 : S5000x128.ShapeCasts S1x5000x128
  bcast_S_S50000x128 : S_.BroadcastsInDim S50000x128 (![] : Fin 0 → Fin S50000x128.rank)
  slices_S3x50000x128_S1x50000x128_0_0_0 : S3x50000x128.Slices ![0, 0, 0] S1x50000x128
  shapeCasts_S1x50000x128_S50000x128 : S1x50000x128.ShapeCasts S50000x128
  slices_S3x2x800000_S1x1x800000_0_0_0 : S3x2x800000.Slices ![0, 0, 0] S1x1x800000
  shapeCasts_S1x1x800000_S800000 : S1x1x800000.ShapeCasts S800000
  slices_S3x2x800000_S1x1x800000_0_1_0 : S3x2x800000.Slices ![0, 1, 0] S1x1x800000
  bcast_S_S800000 : S_.BroadcastsInDim S800000 (![] : Fin 0 → Fin S800000.rank)
  bcast_S800000_S800000x1_0 : S800000.BroadcastsInDim S800000x1 (![0] : Fin 1 → Fin S800000x1.rank)
  slices_S3x800000_S1x800000_0_0 : S3x800000.Slices ![0, 0] S1x800000
  shapeCasts_S1x800000_S800000 : S1x800000.ShapeCasts S800000
  bcast_S800000x1_S800000x128_0_1 : S800000x1.BroadcastsInDim S800000x128 (![0, 1] : Fin 2 → Fin S800000x128.rank)
  slices_S3x50000x128_S1x50000x128_1_0_0 : S3x50000x128.Slices ![1, 0, 0] S1x50000x128
  slices_S3x2x800000_S1x1x800000_1_0_0 : S3x2x800000.Slices ![1, 0, 0] S1x1x800000
  slices_S3x2x800000_S1x1x800000_1_1_0 : S3x2x800000.Slices ![1, 1, 0] S1x1x800000
  slices_S3x800000_S1x800000_1_0 : S3x800000.Slices ![1, 0] S1x800000
  slices_S3x50000x128_S1x50000x128_2_0_0 : S3x50000x128.Slices ![2, 0, 0] S1x50000x128
  slices_S3x2x800000_S1x1x800000_2_0_0 : S3x2x800000.Slices ![2, 0, 0] S1x1x800000
  slices_S3x2x800000_S1x1x800000_2_1_0 : S3x2x800000.Slices ![2, 1, 0] S1x1x800000
  slices_S3x800000_S1x800000_2_0 : S3x800000.Slices ![2, 0] S1x800000
  dot_S5000x128_S128x128_S5000x128_1_0_0_1_n_n_wf : DotDims.WF S5000x128 S128x128 S5000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x128x128.size a ≤ S3x128x128.size a
  hwx0_1 : ∀ i : grid0.Coords, EltTy.bits .f32 = 32 ∨ (Rect.block (s := S3x128x128) S1x128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x5000x128.size a ≤ S3x50000x128.size a
  hwx0_2 : ∀ i : grid0.Coords, EltTy.bits .f32 = 32 ∨ (Rect.block (s := S3x50000x128) S1x5000x128.size (cc0_transform_2 i) (hinb0_2 i)).WholeWords (EltTy.packing .f32)

variable [Facts₀]

def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x128x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S50000x128 : Shape := ⟨2, ![50000, 128]⟩
abbrev S3x128x128 : Shape := ⟨3, ![3, 128, 128]⟩
abbrev S3x2x800000 : Shape := ⟨3, ![3, 2, 800000]⟩
abbrev S3x800000 : Shape := ⟨2, ![3, 800000]⟩
abbrev S_ : Shape := ⟨0, ![]⟩
abbrev S1x128x128 : Shape := ⟨3, ![1, 128, 128]⟩
abbrev S128x128 : Shape := ⟨2, ![128, 128]⟩
abbrev S1x1x800000 : Shape := ⟨3, ![1, 1, 800000]⟩
abbrev S800000 : Shape := ⟨1, ![800000]⟩
abbrev S800000x1 : Shape := ⟨2, ![800000, 1]⟩
abbrev S800000x128 : Shape := ⟨2, ![800000, 128]⟩
abbrev S1x800000 : Shape := ⟨2, ![1, 800000]⟩

abbrev nBuf : Space → Nat
  | .hbm => 84
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S3x128x128, .f32⟩
  | .hbm, ⟨2, _⟩ => ⟨S3x2x800000, .i32⟩
  | .hbm, ⟨3, _⟩ => ⟨S3x800000, .f32⟩
  | .hbm, ⟨4, _⟩ => ⟨S_, .f32⟩
  | .hbm, ⟨5, _⟩ => ⟨S50000x128, .f32⟩
  | .hbm, ⟨6, _⟩ => ⟨S1x128x128, .f32⟩
  | .hbm, ⟨7, _⟩ => ⟨S128x128, .f32⟩
  | .hbm, ⟨8, _⟩ => ⟨S50000x128, .f32⟩
  | .hbm, ⟨9, _⟩ => ⟨S1x1x800000, .i32⟩
  | .hbm, ⟨10, _⟩ => ⟨S800000, .i32⟩
  | .hbm, ⟨11, _⟩ => ⟨S1x1x800000, .i32⟩
  | .hbm, ⟨12, _⟩ => ⟨S800000, .i32⟩
  | .hbm, ⟨13, _⟩ => ⟨S_, .i32⟩
  | .hbm, ⟨14, _⟩ => ⟨S800000, .i32⟩
  | .hbm, ⟨15, _⟩ => ⟨S800000, .i1⟩
  | .hbm, ⟨16, _⟩ => ⟨S_, .i32⟩
  | .hbm, ⟨17, _⟩ => ⟨S800000, .i32⟩
  | .hbm, ⟨18, _⟩ => ⟨S800000, .i32⟩
  | .hbm, ⟨19, _⟩ => ⟨S800000, .i32⟩
  | .hbm, ⟨20, _⟩ => ⟨S800000x1, .i32⟩
  | .hbm, ⟨21, _⟩ => ⟨S800000x128, .f32⟩
  | .hbm, ⟨22, _⟩ => ⟨S1x800000, .f32⟩
  | .hbm, ⟨23, _⟩ => ⟨S800000, .f32⟩
  | .hbm, ⟨24, _⟩ => ⟨S800000x1, .f32⟩
  | .hbm, ⟨25, _⟩ => ⟨S800000x128, .f32⟩
  | .hbm, ⟨26, _⟩ => ⟨S800000x128, .f32⟩
  | .hbm, ⟨27, _⟩ => ⟨S_, .f32⟩
  | .hbm, ⟨28, _⟩ => ⟨S50000x128, .f32⟩
  | .hbm, ⟨29, _⟩ => ⟨S800000x1, .i32⟩
  | .hbm, ⟨30, _⟩ => ⟨S50000x128, .f32⟩
  | .hbm, ⟨31, _⟩ => ⟨S50000x128, .f32⟩
  | .hbm, ⟨32, _⟩ => ⟨S1x128x128, .f32⟩
  | .hbm, ⟨33, _⟩ => ⟨S128x128, .f32⟩
  | .hbm, ⟨34, _⟩ => ⟨S50000x128, .f32⟩
  | .hbm, ⟨35, _⟩ => ⟨S1x1x800000, .i32⟩
  | .hbm, ⟨36, _⟩ => ⟨S800000, .i32⟩
  | .hbm, ⟨37, _⟩ => ⟨S1x1x800000, .i32⟩
  | .hbm, ⟨38, _⟩ => ⟨S800000, .i32⟩
  | .hbm, ⟨39, _⟩ => ⟨S_, .i32⟩
  | .hbm, ⟨40, _⟩ => ⟨S800000, .i32⟩
  | .hbm, ⟨41, _⟩ => ⟨S800000, .i1⟩
  | .hbm, ⟨42, _⟩ => ⟨S_, .i32⟩
  | .hbm, ⟨43, _⟩ => ⟨S800000, .i32⟩
  | .hbm, ⟨44, _⟩ => ⟨S800000, .i32⟩
  | .hbm, ⟨45, _⟩ => ⟨S800000, .i32⟩
  | .hbm, ⟨46, _⟩ => ⟨S800000x1, .i32⟩
  | .hbm, ⟨47, _⟩ => ⟨S800000x128, .f32⟩
  | .hbm, ⟨48, _⟩ => ⟨S1x800000, .f32⟩
  | .hbm, ⟨49, _⟩ => ⟨S800000, .f32⟩
  | .hbm, ⟨50, _⟩ => ⟨S800000x1, .f32⟩
  | .hbm, ⟨51, _⟩ => ⟨S800000x128, .f32⟩
  | .hbm, ⟨52, _⟩ => ⟨S800000x128, .f32⟩
  | .hbm, ⟨53, _⟩ => ⟨S_, .f32⟩
  | .hbm, ⟨54, _⟩ => ⟨S50000x128, .f32⟩
  | .hbm, ⟨55, _⟩ => ⟨S800000x1, .i32⟩
  | .hbm, ⟨56, _⟩ => ⟨S50000x128, .f32⟩
  | .hbm, ⟨57, _⟩ => ⟨S50000x128, .f32⟩
  | .hbm, ⟨58, _⟩ => ⟨S1x128x128, .f32⟩
  | .hbm, ⟨59, _⟩ => ⟨S128x128, .f32⟩
  | .hbm, ⟨60, _⟩ => ⟨S50000x128, .f32⟩
  | .hbm, ⟨61, _⟩ => ⟨S1x1x800000, .i32⟩
  | .hbm, ⟨62, _⟩ => ⟨S800000, .i32⟩
  | .hbm, ⟨63, _⟩ => ⟨S1x1x800000, .i32⟩
  | .hbm, ⟨64, _⟩ => ⟨S800000, .i32⟩
  | .hbm, ⟨65, _⟩ => ⟨S_, .i32⟩
  | .hbm, ⟨66, _⟩ => ⟨S800000, .i32⟩
  | .hbm, ⟨67, _⟩ => ⟨S800000, .i1⟩
  | .hbm, ⟨68, _⟩ => ⟨S_, .i32⟩
  | .hbm, ⟨69, _⟩ => ⟨S800000, .i32⟩
  | .hbm, ⟨70, _⟩ => ⟨S800000, .i32⟩
  | .hbm, ⟨71, _⟩ => ⟨S800000, .i32⟩
  | .hbm, ⟨72, _⟩ => ⟨S800000x1, .i32⟩
  | .hbm, ⟨73, _⟩ => ⟨S800000x128, .f32⟩
  | .hbm, ⟨74, _⟩ => ⟨S1x800000, .f32⟩
  | .hbm, ⟨75, _⟩ => ⟨S800000, .f32⟩
  | .hbm, ⟨76, _⟩ => ⟨S800000x1, .f32⟩
  | .hbm, ⟨77, _⟩ => ⟨S800000x128, .f32⟩
  | .hbm, ⟨78, _⟩ => ⟨S800000x128, .f32⟩
  | .hbm, ⟨79, _⟩ => ⟨S_, .f32⟩
  | .hbm, ⟨80, _⟩ => ⟨S50000x128, .f32⟩
  | .hbm, ⟨81, _⟩ => ⟨S800000x1, .i32⟩
  | .hbm, ⟨82, _⟩ => ⟨S50000x128, .f32⟩
  | .hbm, ⟨83, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_c : Ref sig .tc := ⟨.hbm, 13, rfl⟩
abbrev main_v8 : Ref sig .tc := ⟨.hbm, 14, rfl⟩
abbrev main_v9 : Ref sig .tc := ⟨.hbm, 15, rfl⟩
abbrev main_c_0 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_1 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_c_2 : Ref sig .tc := ⟨.hbm, 39, rfl⟩
abbrev main_v31 : Ref sig .tc := ⟨.hbm, 40, rfl⟩
abbrev main_v32 : Ref sig .tc := ⟨.hbm, 41, rfl⟩
abbrev main_c_3 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_cst_4 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_c_5 : Ref sig .tc := ⟨.hbm, 65, rfl⟩
abbrev main_v54 : Ref sig .tc := ⟨.hbm, 66, rfl⟩
abbrev main_v55 : Ref sig .tc := ⟨.hbm, 67, rfl⟩
abbrev main_c_6 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_v65 : Ref sig .tc := ⟨.hbm, 78, rfl⟩
abbrev main_cst_7 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev main_v69 : Ref sig .tc := ⟨.hbm, 83, rfl⟩

abbrev nD : Nat := 1
abbrev τ : Topo := Topo.v7x

variable {F : FTy → Type} [FloatOps F]

class Facts₀ : Prop where
  bcast_S_S50000x128 : S_.BroadcastsInDim S50000x128 (![] : Fin 0 → Fin S50000x128.rank)
  slices_S3x128x128_S1x128x128_0_0_0 : S3x128x128.Slices ![0, 0, 0] S1x128x128
  shapeCasts_S1x128x128_S128x128 : S1x128x128.ShapeCasts S128x128
  slices_S3x2x800000_S1x1x800000_0_0_0 : S3x2x800000.Slices ![0, 0, 0] S1x1x800000
  shapeCasts_S1x1x800000_S800000 : S1x1x800000.ShapeCasts S800000
  slices_S3x2x800000_S1x1x800000_0_1_0 : S3x2x800000.Slices ![0, 1, 0] S1x1x800000
  bcast_S_S800000 : S_.BroadcastsInDim S800000 (![] : Fin 0 → Fin S800000.rank)
  bcast_S800000_S800000x1_0 : S800000.BroadcastsInDim S800000x1 (![0] : Fin 1 → Fin S800000x1.rank)
  slices_S3x800000_S1x800000_0_0 : S3x800000.Slices ![0, 0] S1x800000
  shapeCasts_S1x800000_S800000 : S1x800000.ShapeCasts S800000
  bcast_S800000x1_S800000x128_0_1 : S800000x1.BroadcastsInDim S800000x128 (![0, 1] : Fin 2 → Fin S800000x128.rank)
  slices_S3x128x128_S1x128x128_1_0_0 : S3x128x128.Slices ![1, 0, 0] S1x128x128
  slices_S3x2x800000_S1x1x800000_1_0_0 : S3x2x800000.Slices ![1, 0, 0] S1x1x800000
  slices_S3x2x800000_S1x1x800000_1_1_0 : S3x2x800000.Slices ![1, 1, 0] S1x1x800000
  slices_S3x800000_S1x800000_1_0 : S3x800000.Slices ![1, 0] S1x800000
  slices_S3x128x128_S1x128x128_2_0_0 : S3x128x128.Slices ![2, 0, 0] S1x128x128
  slices_S3x2x800000_S1x1x800000_2_0_0 : S3x2x800000.Slices ![2, 0, 0] S1x1x800000
  slices_S3x2x800000_S1x1x800000_2_1_0 : S3x2x800000.Slices ![2, 1, 0] S1x1x800000
  slices_S3x800000_S1x800000_2_0 : S3x800000.Slices ![2, 0] S1x800000
  dot_S50000x128_S128x128_S50000x128_1_0_0_1_n_n_wf : DotDims.WF S50000x128 S128x128 S50000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf

class Facts : Prop extends Facts₀ where

variable [Facts]
-- ==== Proof.FrameBits.lean ====
/-
  The frame of `Kernel`: the program's one region (a 10 × 3 grid of matrix products, one 5000-row tile of the first
  argument against one 128 × 128 slice of the second per point) runs to its end at every point, nothing faults, and the
  host lines after it touch neither argument array.

  What the body leaves in the output window's buffer at a point is the body's one stored value over the two input
  blocks (`out0_2`); the input windows keep their blocks; the host lines after the region write only their own
  result buffers, so the four argument arrays end as they were launched, and every other buffer ends at the lines'
  composed values over the region's result array (`run_main`).
-/
import proofs.«108761_j13125420057165_1_alg».proof.Proof.Gen.Kernel.Launch
import proofs.«108761_j13125420057165_1_alg».proof.Proof.Gen.Kernel.Skeleton
import proofs.«108761_j13125420057165_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program around its region -/

/-- The buffers' contents when the region is entered: no host line precedes it, so they are the launch contents. -/
abbrev V0 (c : Dev nD) : Valuation τ sig (Elt F) := StableHlo.after (List.flatten []) (fun b => m (c, b))
/-- The same read at a TensorCore reference. -/
abbrev V (c : Dev nD) (b : Ref sig .tc) : Buf (Elt F) ((c : Thread nD τ).loc b) := V0 m c (Proc.devRef .tc b)

/-- The host lines after the region allocate nothing. -/
theorem hostOps1_fresh : (hostOps1 : List (HloOp τ sig (Elt F))).Forall fun op => op.fresh = ∅ := by
  simp only [List.Forall]; repeat' constructor

/-- None of them writes an array of the region: each writes its own result buffer only. -/
theorem hostOps1_keeps : (hostOps1 : List (HloOp τ sig (Elt F))).Forall fun op =>
    ∀ w, Proc.devRef .tc (Pipeline.arrRef spec0 w) ∉ op.writes := by
  simp only [List.Forall]
  repeat' apply And.intro
  all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)

set_option maxHeartbeats 8000000 in
/-- The program is its region continued by the host lines after it. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [] [hostOps1] (by simp only [List.Forall])
    (by simp only [List.Forall]) main_chain

/-- The later lines touch the region's arrays and the buffers that bypass it only. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · exact (List.forall_iff_forall_mem.mp hostOps1_keeps) op hop

theorem V_main_arg0 (c : Dev nD) : V m c main_arg0 = m ((c : Thread nD τ).loc main_arg0) := rfl
theorem V_main_arg1 (c : Dev nD) : V m c main_arg1 = m ((c : Thread nD τ).loc main_arg1) := rfl
theorem V_main_arg2 (c : Dev nD) : V m c main_arg2 = m ((c : Thread nD τ).loc main_arg2) := rfl
theorem V_main_arg3 (c : Dev nD) : V m c main_arg3 = m ((c : Thread nD τ).loc main_arg3) := rfl

/-- A buffer no later line writes, and that is no array of the region, ends at its launch contents. -/
theorem tail_kept (dats : (p : Fin _) → (c : Dev nD) → Dat τ (Elt F) Unit ℕ (UR sig nD τ) ℕ (cfgs p) c) (c : Dev nD)
    (b : Ref sig .tc) (hw : (hostOps1 : List (HloOp τ sig (Elt F))).Forall fun op => Proc.devRef .tc b ∉ op.writes)
    (hb : ∀ w, Pipeline.arrRef spec0 w ≠ b) :
    Pipeline.afterTail₀ cfgs dats 0 (V0 m) [hostOps1] c b = m ((c : Thread nD τ).loc b) := by
  unfold Pipeline.afterTail₀
  rw [StableHlo.after_of_forall_not_mem (b := Proc.devRef .tc b) _ _ (List.forall_iff_forall_mem.mp (by
      simp only [List.flatten_cons, List.flatten_nil, List.append_nil]; exact hw)),
    Pipeline.withArrays_of_ne _ c (V0 m c) _ b hb]
  rfl

/-- No line after the region writes the third argument: it ends as launched. -/
theorem W_main_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) :=
  tail_kept m dats c main_arg2 (by
      simp only [List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))
    (by decide)

/-- Nor the fourth. -/
theorem W_main_arg3 (dats : (p : Fin _) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) :=
  tail_kept m dats c main_arg3 (by
      simp only [List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))
    (by decide)

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The first input window's current buffer holds its block at every point, whether fetched there or kept from the
    point before (the row tile changes only every third point). -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- The second input window's likewise. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the run's -/

/-- From a run that ends with every array of the region at what the proof data computes and every other buffer as the
    later lines leave it: the two staged arguments are input windows, which the region only reads, and the two others
    no line writes. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h c).1 0).trans (((dats 0 c).arrAt_in 0 rfl _).trans ((hA c 0).trans (V_main_arg0 m c))),
    ((h c).1 1).trans (((dats 0 c).arrAt_in 1 rfl _).trans ((hA c 1).trans (V_main_arg1 m c))),
    ((h c).2 main_arg2 (Pipeline.mem_restRefs_of main_arg2 (by decide) (by decide))).trans (W_main_arg2 m dats c),
    ((h c).2 main_arg3 (Pipeline.mem_restRefs_of main_arg3 (by decide) (by decide))).trans (W_main_arg3 m dats c)⟩) h

/-! ## The body's accesses -/

abbrev r0_0 : Rect S5000x128 := Rect.unit (s := S5000x128) ![0, 0] S5000x128.size inb_S5000x128_S5000x128_0_0
abbrev r0_1 : Rect S1x128x128 := Rect.unit (s := S1x128x128) ![0, 0, 0] S1x128x128.size inb_S1x128x128_S1x128x128_0_0_0
abbrev r0_2 : Rect S1x5000x128 := Rect.unit (s := S1x5000x128) ![0, 0, 0] S1x5000x128.size inb_S1x5000x128_S1x5000x128_0_0_0

/-! ## What the body leaves in the output window's buffer -/

/-- The output window's buffer after the body: its one store, of the whole buffer, of the stored value over the two
    input buffers read whole. -/
def out0_2 (x0 : Vec F S5000x128 .f32) (x1 : Vec F S1x128x128 .f32) : Vec F S1x5000x128 .f32 :=
  View.canon [⟨r0_2, k0_pay1 (View.ld x0 r0_0) (View.ld x1 r0_1)⟩]

/-- The store's rectangle is the whole buffer. -/
theorem cover0_2 (p0 : Vec F S1x5000x128 .f32) (y : S1x5000x128.Idx) :
    ∃ pc ∈ ([⟨r0_2, p0⟩] : List (View.Piece (Elt F) S1x5000x128 .f32)), y ∈ pc.1.set :=
  View.cover_of_tiled [⟨r0_2, p0⟩] S1x5000x128.size (by rfl) y

/-! ## The body's triple -/

set_option maxHeartbeats 1000000 in
/-- The body on whole staging buffers, the inputs' at `x0`, `x1` and the output's at anything (it is loaded once, the
    loaded value unused), runs to its end with the inputs' as they were and the output's at `out0_2 x0 x1`. -/
theorem sound_kernel (c : Dev nD) (E : Set ℕ) (i : grid0.Coords) (arg2 : Memref sig .tc .vmem S5000x128 .f32) (harg2 : arg2.IsWhole) (arg3 : Memref sig .tc .vmem S1x128x128 .f32) (harg3 : arg3.IsWhole) (arg4 : Memref sig .tc .vmem S1x5000x128 .f32) (harg4 : arg4.IsWhole)
    (x0 : Vec F S5000x128 .f32) (x1 : Vec F S1x128x128 .f32) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (out0_2 x0 x1)) -∗ K ⟨⟩))
      ⊢ wp frame (wpE (defs₀ (F := F)) Variants.none c none) E (cc0__matmul_kernel i arg2 harg2 arg3 harg3 arg4 harg4) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The region's proof data -/

/-- On core `c`: the arrays as the region finds them; after the body at point `t` each input's buffer at its block
    and the output's at `out0_2` of the two input blocks; nothing else of the core's is touched; nothing owed; full
    shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => out0_2 (iblk m c 0 t) (iblk m c 1 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = out0_2 (iblk m c 0 t) (iblk m c 1 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

/-- The body at any point: the inputs' buffers hold their blocks, so `sound_kernel` applies; the rest passes through. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2]
  iintro ⟨HΦ, Ho, ⟨%d0, H0⟩, ⟨%d1, H1⟩, ⟨%d2, H2⟩⟩
  iapply (sound_kernel c Set.univ (grid0.coords t) _ _ _ _ _ _ (iblk m c 0 t) (iblk m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation (c : Dev nD) : BodyObligation (dats (F := F) m 0 c) (defs₀ (F := F)) Variants.none () Set.univ := fun t => by
  rw [bigSep_W0, bigSep_W0]
  exact sound_body m c t

/-! ## The run and the frame -/

set_option maxHeartbeats 8000000 in
set_option backward.isDefEq.respectTransparency.types false in
/-- From any memory with zero counters every weakly fair execution of the program terminates, and every final state
    has every array of the region at what the proof data computes and every other unscoped buffer as the lines after
    the region leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame claim's statement at any instance of the floats. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

end Cert.Kernel.Fr

end
-- ==== Proof.FrameIdeal.lean ====
/-
  The frame of `KernelIdeal`: the program's one region (a 10 × 3 grid of matrix products, one 5000-row tile of the first
  argument against one 128 × 128 slice of the second per point) runs to its end at every point, nothing faults, and the
  host lines after it touch neither argument array.

  What the body leaves in the output window's buffer at a point is the body's one stored value over the two input
  blocks (`out0_2`); the input windows keep their blocks; the host lines after the region write only their own
  result buffers, so the four argument arrays end as they were launched, and every other buffer ends at the lines'
  composed values over the region's result array (`run_main`).
-/
import proofs.«108761_j13125420057165_1_alg».proof.Proof.Gen.KernelIdeal.Launch
import proofs.«108761_j13125420057165_1_alg».proof.Proof.Gen.KernelIdeal.Skeleton
import proofs.«108761_j13125420057165_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program around its region -/

/-- The buffers' contents when the region is entered: no host line precedes it, so they are the launch contents. -/
abbrev V0 (c : Dev nD) : Valuation τ sig (Elt F) := StableHlo.after (List.flatten []) (fun b => m (c, b))
/-- The same read at a TensorCore reference. -/
abbrev V (c : Dev nD) (b : Ref sig .tc) : Buf (Elt F) ((c : Thread nD τ).loc b) := V0 m c (Proc.devRef .tc b)

/-- The host lines after the region allocate nothing. -/
theorem hostOps1_fresh : (hostOps1 : List (HloOp τ sig (Elt F))).Forall fun op => op.fresh = ∅ := by
  simp only [List.Forall]; repeat' constructor

/-- None of them writes an array of the region: each writes its own result buffer only. -/
theorem hostOps1_keeps : (hostOps1 : List (HloOp τ sig (Elt F))).Forall fun op =>
    ∀ w, Proc.devRef .tc (Pipeline.arrRef spec0 w) ∉ op.writes := by
  simp only [List.Forall]
  repeat' apply And.intro
  all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)

set_option maxHeartbeats 8000000 in
/-- The program is its region continued by the host lines after it. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [] [hostOps1] (by simp only [List.Forall])
    (by simp only [List.Forall]) main_chain

/-- The later lines touch the region's arrays and the buffers that bypass it only. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · exact (List.forall_iff_forall_mem.mp hostOps1_keeps) op hop

theorem V_main_arg0 (c : Dev nD) : V m c main_arg0 = m ((c : Thread nD τ).loc main_arg0) := rfl
theorem V_main_arg1 (c : Dev nD) : V m c main_arg1 = m ((c : Thread nD τ).loc main_arg1) := rfl
theorem V_main_arg2 (c : Dev nD) : V m c main_arg2 = m ((c : Thread nD τ).loc main_arg2) := rfl
theorem V_main_arg3 (c : Dev nD) : V m c main_arg3 = m ((c : Thread nD τ).loc main_arg3) := rfl

/-- A buffer no later line writes, and that is no array of the region, ends at its launch contents. -/
theorem tail_kept (dats : (p : Fin _) → (c : Dev nD) → Dat τ (Elt F) Unit ℕ (UR sig nD τ) ℕ (cfgs p) c) (c : Dev nD)
    (b : Ref sig .tc) (hw : (hostOps1 : List (HloOp τ sig (Elt F))).Forall fun op => Proc.devRef .tc b ∉ op.writes)
    (hb : ∀ w, Pipeline.arrRef spec0 w ≠ b) :
    Pipeline.afterTail₀ cfgs dats 0 (V0 m) [hostOps1] c b = m ((c : Thread nD τ).loc b) := by
  unfold Pipeline.afterTail₀
  rw [StableHlo.after_of_forall_not_mem (b := Proc.devRef .tc b) _ _ (List.forall_iff_forall_mem.mp (by
      simp only [List.flatten_cons, List.flatten_nil, List.append_nil]; exact hw)),
    Pipeline.withArrays_of_ne _ c (V0 m c) _ b hb]
  rfl

/-- No line after the region writes the third argument: it ends as launched. -/
theorem W_main_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) :=
  tail_kept m dats c main_arg2 (by
      simp only [List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))
    (by decide)

/-- Nor the fourth. -/
theorem W_main_arg3 (dats : (p : Fin _) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) :=
  tail_kept m dats c main_arg3 (by
      simp only [List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))
    (by decide)

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The first input window's current buffer holds its block at every point, whether fetched there or kept from the
    point before (the row tile changes only every third point). -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- The second input window's likewise. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the run's -/

/-- From a run that ends with every array of the region at what the proof data computes and every other buffer as the
    later lines leave it: the two staged arguments are input windows, which the region only reads, and the two others
    no line writes. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h c).1 0).trans (((dats 0 c).arrAt_in 0 rfl _).trans ((hA c 0).trans (V_main_arg0 m c))),
    ((h c).1 1).trans (((dats 0 c).arrAt_in 1 rfl _).trans ((hA c 1).trans (V_main_arg1 m c))),
    ((h c).2 main_arg2 (Pipeline.mem_restRefs_of main_arg2 (by decide) (by decide))).trans (W_main_arg2 m dats c),
    ((h c).2 main_arg3 (Pipeline.mem_restRefs_of main_arg3 (by decide) (by decide))).trans (W_main_arg3 m dats c)⟩) h

/-! ## The body's accesses -/

abbrev r0_0 : Rect S5000x128 := Rect.unit (s := S5000x128) ![0, 0] S5000x128.size inb_S5000x128_S5000x128_0_0
abbrev r0_1 : Rect S1x128x128 := Rect.unit (s := S1x128x128) ![0, 0, 0] S1x128x128.size inb_S1x128x128_S1x128x128_0_0_0
abbrev r0_2 : Rect S1x5000x128 := Rect.unit (s := S1x5000x128) ![0, 0, 0] S1x5000x128.size inb_S1x5000x128_S1x5000x128_0_0_0

/-! ## What the body leaves in the output window's buffer -/

/-- The output window's buffer after the body: its one store, of the whole buffer, of the stored value over the two
    input buffers read whole. -/
def out0_2 (x0 : Vec F S5000x128 .f32) (x1 : Vec F S1x128x128 .f32) : Vec F S1x5000x128 .f32 :=
  View.canon [⟨r0_2, k0_pay1 (View.ld x0 r0_0) (View.ld x1 r0_1)⟩]

/-- The store's rectangle is the whole buffer. -/
theorem cover0_2 (p0 : Vec F S1x5000x128 .f32) (y : S1x5000x128.Idx) :
    ∃ pc ∈ ([⟨r0_2, p0⟩] : List (View.Piece (Elt F) S1x5000x128 .f32)), y ∈ pc.1.set :=
  View.cover_of_tiled [⟨r0_2, p0⟩] S1x5000x128.size (by rfl) y

/-! ## The body's triple -/

set_option maxHeartbeats 1000000 in
/-- The body on whole staging buffers, the inputs' at `x0`, `x1` and the output's at anything (it is loaded once, the
    loaded value unused), runs to its end with the inputs' as they were and the output's at `out0_2 x0 x1`. -/
theorem sound_kernel (c : Dev nD) (E : Set ℕ) (i : grid0.Coords) (arg2 : Memref sig .tc .vmem S5000x128 .f32) (harg2 : arg2.IsWhole) (arg3 : Memref sig .tc .vmem S1x128x128 .f32) (harg3 : arg3.IsWhole) (arg4 : Memref sig .tc .vmem S1x5000x128 .f32) (harg4 : arg4.IsWhole)
    (x0 : Vec F S5000x128 .f32) (x1 : Vec F S1x128x128 .f32) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (out0_2 x0 x1)) -∗ K ⟨⟩))
      ⊢ wp frame (wpE (defs₀ (F := F)) Variants.none c none) E (cc0__matmul_kernel i arg2 harg2 arg3 harg3 arg4 harg4) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The region's proof data -/

/-- On core `c`: the arrays as the region finds them; after the body at point `t` each input's buffer at its block
    and the output's at `out0_2` of the two input blocks; nothing else of the core's is touched; nothing owed; full
    shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => out0_2 (iblk m c 0 t) (iblk m c 1 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = out0_2 (iblk m c 0 t) (iblk m c 1 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

/-- The body at any point: the inputs' buffers hold their blocks, so `sound_kernel` applies; the rest passes through. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2]
  iintro ⟨HΦ, Ho, ⟨%d0, H0⟩, ⟨%d1, H1⟩, ⟨%d2, H2⟩⟩
  iapply (sound_kernel c Set.univ (grid0.coords t) _ _ _ _ _ _ (iblk m c 0 t) (iblk m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation (c : Dev nD) : BodyObligation (dats (F := F) m 0 c) (defs₀ (F := F)) Variants.none () Set.univ := fun t => by
  rw [bigSep_W0, bigSep_W0]
  exact sound_body m c t

/-! ## The run and the frame -/

set_option maxHeartbeats 8000000 in
set_option backward.isDefEq.respectTransparency.types false in
/-- From any memory with zero counters every weakly fair execution of the program terminates, and every final state
    has every array of the region at what the proof data computes and every other unscoped buffer as the lines after
    the region leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame claim's statement at any instance of the floats. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

end Cert.KernelIdeal.Fr

end
-- ==== Proof.HostTail.lean ====
/-
  What the two programs share, and what the kernel's region computes.

  Both programs end with the same host computation: for each of the three edge sets, the rows of a [50000, 128] table
  are gathered at the edges' source nodes (a negative index counted from the end), scaled by the edges' weights and
  summed into the edges' destination rows of a zero table; the three tables are added to zero in order. `tail` is
  that computation as ONE function of the three row tables, the edge array and the weight array: the kernel feeds it
  the three [50000, 128] slices of its region's [3, 50000, 128] result, the reference three whole matrix products.

  The region's result is, entry by entry, the matrix product of the first argument with slice `k` of the second:
  entry (k, r, j) is the sum over c of x (r, c) · W (k, c, j) (`Gh`).
-/
import proofs.«108761_j13125420057165_1_alg».proof.Proof.Gen.KernelIdeal
import Idealize.ShloMosaic.PureOps.Ideal
import Idealize.ShloMosaic.Lib.ValueIdx

noncomputable section

open scoped BigOperators

namespace Cert.KernelIdeal.Spec

open Idealize.ShloMosaic Idealize.ShloMosaic.ValueIdx
open Cert.KernelIdeal Cert.KernelIdeal.Gen

variable {F : FTy → Type} [FloatOps F]

/-- A source index counted from the end when negative: `s + 50000` where `s < 0`, else `s`. -/
def wrapIdx (s : (⟨S800000, .i32⟩ : BufTy).Contents (Elt F)) : (⟨S800000, .i32⟩ : BufTy).Contents (Elt F) :=
  select (cmpi .slt s (broadcastInDim S800000 ![] bcast_S_S800000 (constantI S_ 32 0#32)))
    (addi s (broadcastInDim S800000 ![] bcast_S_S800000 (constantI S_ 32 50000#32))) s

/-- One edge set's contribution: the rows of `h` at the sources, each scaled by its edge's weight, summed into the
    destinations' rows of a zero table. -/
def contrib (h : (⟨S50000x128, .f32⟩ : BufTy).Contents (Elt F))
    (src dst : (⟨S800000, .i32⟩ : BufTy).Contents (Elt F)) (w : (⟨S800000, .f32⟩ : BufTy).Contents (Elt F)) :
    (⟨S50000x128, .f32⟩ : BufTy).Contents (Elt F) :=
  Host.scatterAdd scatter_S50000x128_S800000x1_S800000x128_1_0_0_1
    (broadcastInDim S50000x128 ![] bcast_S_S50000x128 (constant S_ .f32 0x00000000#32))
    (broadcastInDim S800000x1 ![0] bcast_S800000_S800000x1_0 dst)
    (mulf (Host.gather gather_S50000x128_S800000x1_S800000x128_1_0_n_n_0_1_1128 h
        (broadcastInDim S800000x1 ![0] bcast_S800000_S800000x1_0 (wrapIdx src)))
      (broadcastInDim S800000x128 ![0, 1] bcast_S800000x1_S800000x128_0_1
        (broadcastInDim S800000x1 ![0] bcast_S800000_S800000x1_0 w)))

/-- One row of the edge array (edge set `off 0`, sources for `off 1 = 0` and destinations for `off 1 = 1`), flat. -/
def edgeRow (ei : (⟨S3x2x800000, .i32⟩ : BufTy).Contents (Elt F)) (off : Fin 3 → Nat)
    (h : S3x2x800000.Slices off S1x1x800000) : (⟨S800000, .i32⟩ : BufTy).Contents (Elt F) :=
  shapeCast S800000 (extractStridedSlice S1x1x800000 off ei h) shapeCasts_S1x1x800000_S800000

/-- One row of the weight array, flat. -/
def weightRow (ew : (⟨S3x800000, .f32⟩ : BufTy).Contents (Elt F)) (off : Fin 2 → Nat)
    (h : S3x800000.Slices off S1x800000) : (⟨S800000, .f32⟩ : BufTy).Contents (Elt F) :=
  shapeCast S800000 (extractStridedSlice S1x800000 off ew h) shapeCasts_S1x800000_S800000

/-- The shared host computation: zero plus the three edge sets' contributions, in order. -/
def tail (h0 h1 h2 : (⟨S50000x128, .f32⟩ : BufTy).Contents (Elt F))
    (ei : (⟨S3x2x800000, .i32⟩ : BufTy).Contents (Elt F)) (ew : (⟨S3x800000, .f32⟩ : BufTy).Contents (Elt F)) :
    (⟨S50000x128, .f32⟩ : BufTy).Contents (Elt F) :=
  addf (addf (addf (broadcastInDim S50000x128 ![] bcast_S_S50000x128 (constant S_ .f32 0x00000000#32))
      (contrib h0 (edgeRow ei ![0, 0, 0] slices_S3x2x800000_S1x1x800000_0_0_0) (edgeRow ei ![0, 1, 0] slices_S3x2x800000_S1x1x800000_0_1_0)
        (weightRow ew ![0, 0] slices_S3x800000_S1x800000_0_0)))
      (contrib h1 (edgeRow ei ![1, 0, 0] slices_S3x2x800000_S1x1x800000_1_0_0) (edgeRow ei ![1, 1, 0] slices_S3x2x800000_S1x1x800000_1_1_0)
        (weightRow ew ![1, 0] slices_S3x800000_S1x800000_1_0)))
    (contrib h2 (edgeRow ei ![2, 0, 0] slices_S3x2x800000_S1x1x800000_2_0_0) (edgeRow ei ![2, 1, 0] slices_S3x2x800000_S1x1x800000_2_1_0)
      (weightRow ew ![2, 0] slices_S3x800000_S1x800000_2_0))

/-- The three [50000, 128] row tables cut out of a [3, 50000, 128] array. -/
def hsl0 (v : (⟨S3x50000x128, .f32⟩ : BufTy).Contents (Elt F)) : (⟨S50000x128, .f32⟩ : BufTy).Contents (Elt F) :=
  shapeCast S50000x128 (extractStridedSlice S1x50000x128 ![0, 0, 0] v slices_S3x50000x128_S1x50000x128_0_0_0) shapeCasts_S1x50000x128_S50000x128
def hsl1 (v : (⟨S3x50000x128, .f32⟩ : BufTy).Contents (Elt F)) : (⟨S50000x128, .f32⟩ : BufTy).Contents (Elt F) :=
  shapeCast S50000x128 (extractStridedSlice S1x50000x128 ![1, 0, 0] v slices_S3x50000x128_S1x50000x128_1_0_0) shapeCasts_S1x50000x128_S50000x128
def hsl2 (v : (⟨S3x50000x128, .f32⟩ : BufTy).Contents (Elt F)) : (⟨S50000x128, .f32⟩ : BufTy).Contents (Elt F) :=
  shapeCast S50000x128 (extractStridedSlice S1x50000x128 ![2, 0, 0] v slices_S3x50000x128_S1x50000x128_2_0_0) shapeCasts_S1x50000x128_S50000x128

/-- Entry (k, r, j) of the region's result: row `r` of the first argument against column `j` of slice `k` of the
    second. -/
def Gent (x : FVec Ideal S50000x128 .f32) (W : FVec Ideal S3x128x128 .f32) (k : Fin 3) (r : Fin 50000) (j : Fin 128) : EReal :=
  ∑ c : Fin 128, x (ix2 r c) * W (ix3 k c j)

/-- The region's whole result array. -/
def Gh (x : FVec Ideal S50000x128 .f32) (W : FVec Ideal S3x128x128 .f32) : FVec Ideal S3x50000x128 .f32 :=
  fun i => Gent x W (i 0) (i 1) (i 2)

theorem Gh_apply (x : FVec Ideal S50000x128 .f32) (W : FVec Ideal S3x128x128 .f32) (k : Fin 3) (r : Fin 50000) (j : Fin 128) :
    Gh x W (ix3 k r j) = ∑ c : Fin 128, x (ix2 r c) * W (ix3 k c j) := rfl

end Cert.KernelIdeal.Spec

end
-- ==== Proof.TailRead.lean ====
/-
  The host lines that follow the region, read back as one function.

  After the region the program runs 77 host operations: for each of the three edge sets it cuts the set's [50000, 128]
  slice out of the region's [3, 50000, 128] result, cuts the set's source row, destination row and weight row out of the
  edge and weight arrays, counts a negative source from the end, gathers the slice's rows at the sources, scales them by
  the weights, sums them into the destinations' rows of a zero table, and adds that table to the running sum, which
  starts at zero. Each operation writes one buffer of its own and reads buffers written earlier or never written, so
  the last buffer's contents are the operations' functions composed, applied to what the three buffers read but never
  written hold at the start: the region's result array, the edge array and the weight array. That composition is,
  term for term, the shared host computation `Spec.tail` at the three slices of the region's result.

  The statement is over an arbitrary valuation of the core's buffers: nothing is assumed of what the region left
  anywhere, only the three buffers named on the right are read.
-/
import proofs.«108761_j13125420057165_1_alg».proof.Proof.Gen.KernelIdeal.Launch
import proofs.«108761_j13125420057165_1_alg».proof.Proof.HostTail
import Idealize.ShloMosaic.Lib.StableHlo.Run

noncomputable section

namespace Cert.KernelIdeal.TailRead

open Idealize.ShloMosaic Idealize.ShloMosaic.TcCoe Idealize.SL.Sem Idealize.ShloMosaic.StableHlo Cert.KernelIdeal Cert.KernelIdeal.Gen

variable {F : FTy → Type} [FloatOps F]

-- 77 operations: each buffer's contents are rewritten to its operation's function of its operands' contents, the
-- operands' in turn, down to the three buffers no operation writes
set_option maxHeartbeats 8000000 in
set_option maxRecDepth 16384 in
/-- From ANY contents `W` of the core's buffers, the 77 lines leave in the result buffer the shared host computation of
    the three [50000, 128] slices of the region's result array, the edge array and the weight array as `W` has them. -/
theorem tail_read (W : Valuation τ sig (Elt F)) :
    StableHlo.after (hostOps1 (F := F)) W (Proc.devRef .tc main_v67)
      = Spec.tail (Spec.hsl0 (W (Proc.devRef .tc main_v0))) (Spec.hsl1 (W (Proc.devRef .tc main_v0))) (Spec.hsl2 (W (Proc.devRef .tc main_v0)))
          (W (Proc.devRef .tc main_arg2)) (W (Proc.devRef .tc main_arg3)) := by
  -- the last buffer's contents as the composed term over `W` at the region's result, the edge array and the weight array
  after_results_simp
  -- which is `Spec.tail` unfolded: zero plus the three contributions, each a scatter-add of the gathered, scaled rows
  rfl

end Cert.KernelIdeal.TailRead

end
-- ==== Proof.LibTileMatmul.lean ====
/-
  A plain matrix product read at an index, at the extended reals, and the bridge between a ROW TILE's product and
  the whole array's.

  Both a `tpu.matmul` into the zero accumulator and a host `dot_general`, with the dimension numbers of the plain
  product (the left operand's axis 1 contracted against the right operand's axis 0, no batch axis), are at output
  index (a, b) the finite sum `∑ c, A (a, c) * B (c, b)` over the contracted coordinate. No rounding is left at the
  extended reals, so the two sums have literally the same terms, and a product of a row tile `T` of `X` (row `p` of
  the tile is row `r + p` of `X`) with `B` is, row by row, the product of `X` with `B`.

  Stated over the library only: the dimension-number record is spelt with its six lists and ANY proof `w` of its
  side conditions, which is how a printed program's record unfolds.
-/
import Idealize.ShloMosaic.PureOps.Ideal.Laws
import Idealize.ShloMosaic.Lib.ValueIdx

noncomputable section

open scoped BigOperators

namespace Idealize.ShloMosaic.TileMatmul

open Idealize.ShloMosaic Idealize.ShloMosaic.ValueIdx

variable {m k n : Nat} {φ₁ φ₂ : FTy}

/-- The plain product's dimension numbers over [m, k] × [k, n] → [m, n], from any proof of their side conditions. -/
abbrev plainDims (w : DotDims.WF ⟨2, ![m, k]⟩ ⟨2, ![k, n]⟩ ⟨2, ![m, n]⟩ [1] [0] [0] [1] [] []) :
    DotDims ⟨2, ![m, k]⟩ ⟨2, ![k, n]⟩ ⟨2, ![m, n]⟩ := ⟨[1], [0], [0], [1], [], [], w⟩

/-- The left operand's index at output index (a, b) and contracted coordinate c is (a, c). -/
theorem lhsIdx_plain (w : DotDims.WF ⟨2, ![m, k]⟩ ⟨2, ![k, n]⟩ ⟨2, ![m, n]⟩ [1] [0] [0] [1] [] [])
    (a : Fin m) (b : Fin n) (c : Fin k) :
    (plainDims w).lhsIdx (ix2 a b) ((contrEquiv1 (plainDims w) k rfl rfl).symm c) = ix2 a c := by
  have c2 := contrEquiv1_symm_val (plainDims w) k rfl rfl c
  funext ax; apply Fin.ext
  match ax with
  | ⟨0, _⟩ => simp [DotDims.lhsIdx]; rfl
  | ⟨1, _⟩ => simp [DotDims.lhsIdx]; exact c2

/-- The right operand's index there is (c, b). -/
theorem rhsIdx_plain (w : DotDims.WF ⟨2, ![m, k]⟩ ⟨2, ![k, n]⟩ ⟨2, ![m, n]⟩ [1] [0] [0] [1] [] [])
    (a : Fin m) (b : Fin n) (c : Fin k) :
    (plainDims w).rhsIdx (ix2 a b) ((contrEquiv1 (plainDims w) k rfl rfl).symm c) = ix2 c b := by
  have c2 := contrEquiv1_symm_val (plainDims w) k rfl rfl c
  funext ax; apply Fin.ext
  match ax with
  | ⟨0, _⟩ => simp [DotDims.rhsIdx]; exact c2
  | ⟨1, _⟩ => simp [DotDims.rhsIdx]; rfl

/-- A `tpu.matmul` with the plain product's dimension numbers into the zero accumulator, at (a, b): the sum over the
    contracted coordinate of the products of the entries. -/
theorem matmul_zero_apply (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (a : Fin m) (b : Fin n) :
    matmul (F := Ideal) (plainDims w) prec A B (constant (F := Ideal) ⟨2, ![m, n]⟩ .f32 0x00000000#32) (ix2 a b)
      = ∑ c : Fin k, A (ix2 a c) * B (ix2 c b) := by
  show FloatOps.matmul (plainDims w) prec A B (constant ⟨2, ![m, n]⟩ .f32 0x00000000#32) (ix2 a b) = _
  rw [Ideal.matmul_constant_zero_apply, ← Equiv.sum_comp (contrEquiv1 (plainDims w) k rfl rfl).symm]
  refine Finset.sum_congr rfl fun c _ => ?_
  rw [lhsIdx_plain, rhsIdx_plain]

/-- A host `dot_general` with the same dimension numbers, at (a, b): the same sum. -/
theorem dotGeneral_apply (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (a : Fin m) (b : Fin n) :
    Host.dotGeneral (F := Ideal) (plainDims w) prec A B (ix2 a b) = ∑ c : Fin k, A (ix2 a c) * B (ix2 c b) := by
  show FloatOps.dotGeneral (plainDims w) prec _ A B (ix2 a b) = _
  rw [Ideal.dotGeneral_apply, ← Equiv.sum_comp (contrEquiv1 (plainDims w) k rfl rfl).symm]
  refine Finset.sum_congr rfl fun c _ => ?_
  rw [lhsIdx_plain, rhsIdx_plain]

/-- THE BRIDGE. `T` is a tile of `M'` rows of `X` starting at row `r` (`hT`: entry (p, c) of the tile is entry
    (r + p, c) of `X`; the two may carry different float formats, which are one type at the extended reals). Then the
    tile's product with `B` into the zero accumulator, at (p, q), is the whole product `X · B` at (r + p, q). -/
theorem matmul_tile_eq_dotGeneral {M : Nat} {ψ₁ ψ₂ : FTy}
    (wT : DotDims.WF ⟨2, ![m, k]⟩ ⟨2, ![k, n]⟩ ⟨2, ![m, n]⟩ [1] [0] [0] [1] [] [])
    (wX : DotDims.WF ⟨2, ![M, k]⟩ ⟨2, ![k, n]⟩ ⟨2, ![M, n]⟩ [1] [0] [0] [1] [] [])
    (prec prec' : Option ContractPrecision)
    (T : FVec Ideal ⟨2, ![m, k]⟩ φ₁) (B : FVec Ideal ⟨2, ![k, n]⟩ φ₂)
    (X : FVec Ideal ⟨2, ![M, k]⟩ ψ₁) (B' : FVec Ideal ⟨2, ![k, n]⟩ ψ₂)
    (p : Fin m) (q : Fin n) (i : Fin M)
    (hT : ∀ c : Fin k, (T (ix2 p c) : EReal) = X (ix2 i c)) (hB : ∀ c : Fin k, (B (ix2 c q) : EReal) = B' (ix2 c q)) :
    (matmul (F := Ideal) (plainDims wT) prec T B (constant (F := Ideal) ⟨2, ![m, n]⟩ .f32 0x00000000#32) (ix2 p q) : EReal)
      = Host.dotGeneral (F := Ideal) (plainDims wX) prec' X B' (ix2 i q) := by
  rw [matmul_zero_apply, dotGeneral_apply]
  exact Finset.sum_congr rfl fun c _ => by rw [hT c, hB c]

end Idealize.ShloMosaic.TileMatmul

end
-- ==== Proof.RegionValue.lean ====
/-
  The region's result as ONE array.

  The region runs over a 10 × 3 grid, the last axis fastest: point t has row-tile number t / 3 and slice number t % 3.
  At that point the body multiplies the 5000-row tile t / 3 of the first argument by slice t % 3 of the second and the
  pipeline writes the product back as block (t % 3, t / 3, 0) of the [3, 50000, 128] result. Entry (p, q) of a tile's
  product is the sum over c of tile (p, c) · slice (c, q) (the format changes are the identity at the extended reals
  and the accumulator is zero), and row p of tile R is row R · 5000 + p of the argument: so every block written back is
  that block of the one array whose entry (k, r, j) is the sum over c of x (r, c) · W (k, c, j). The thirty blocks tile
  the result (entry (k, r, j) lies in the block of point (r / 5000) · 3 + k), hence the result array ends as that array.
-/
import proofs.«108761_j13125420057165_1_alg».proof.Proof.FrameIdeal
import proofs.«108761_j13125420057165_1_alg».proof.Proof.HostTail
import proofs.«108761_j13125420057165_1_alg».proof.Proof.LibTileMatmul
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.RegionValue

open Idealize.ShloMosaic Idealize.ShloMosaic.ValueIdx Idealize.ShloMosaic.TcCoe Idealize.SL.Sem
open Idealize.ShloMosaic.Pipeline (Dat)
open Cert.KernelIdeal Cert.KernelIdeal.Gen

/-! ## The body's stored value at an index -/

/-- Entry (p, q) of the stored value: row p of the loaded tile against column q of the loaded slice. The two format
    changes are the identity, the two shape casts only add or drop the leading unit axis, and the product accumulates
    into zero. -/
theorem pay_apply (v0 : Vec Ideal S5000x128 .f32) (v2 : Vec Ideal S1x128x128 .f32) (u : Fin 1) (p : Fin 5000) (q : Fin 128) :
    k0_pay1 (F := Ideal) v0 v2 (ix3 u p q) = ∑ cc : Fin 128, v0 (ix2 p cc) * v2 (ix3 (0 : Fin 1) cc q) := by
  unfold k0_pay1
  refine (shapeCast_ab_1ab_apply _ shapeCasts_S5000x128_S1x5000x128 u p q).trans ?_
  refine (TileMatmul.matmul_zero_apply dot_S5000x128_S128x128_S5000x128_1_0_0_1_n_n_wf none _ _ p q).trans ?_
  refine Finset.sum_congr rfl fun cc _ => ?_
  exact congrArg (fun z => v0 (ix2 p cc) * z) (shapeCast_1ab_ab_apply v2 shapeCasts_S1x128x128_S128x128 cc q)

/-! ## The printed index maps over the grid -/

/-- At point t the output's block has index (t % 3, t / 3, 0), the first input's (t / 3, 0) and the second input's
    (t % 3, 0, 0): decided over the thirty points. -/
theorem idx_facts : ∀ t : Fin cfg0.N,
    win0_2.index t (0 : Fin 3) = t.val % 3 ∧ win0_2.index t (1 : Fin 3) = t.val / 3 ∧ win0_2.index t (2 : Fin 3) = 0
    ∧ win0_0.index t (0 : Fin 2) = t.val / 3 ∧ win0_0.index t (1 : Fin 2) = 0
    ∧ win0_1.index t (0 : Fin 3) = t.val % 3 ∧ win0_1.index t (1 : Fin 3) = 0 ∧ win0_1.index t (2 : Fin 3) = 0 :=
  (by decide +kernel : ∀ t : Fin grid0.N, _)

/-! ## A block read off an array, and the output buffer cut to its block -/

/-- The first input's block at point t holds rows (t / 3) · 5000 … of the array it is cut from. -/
theorem blk0_read (A : FVec Ideal S50000x128 .f32) (t : Fin cfg0.N) (p : Fin 5000) (cc : Fin 128) (r : Fin 50000)
    (hr : r.val = t.val / 3 * 5000 + p.val) :
    ((cfg0.win 0).blk t).view.read (Elt Ideal) A (ix2 p cc) = A (ix2 r cc) := by
  obtain ⟨-, -, -, e00, e01, -⟩ := idx_facts t
  rw [View.read_apply]
  show A _ = A _
  congr 1
  funext a
  apply Fin.ext
  match a with
  | ⟨0, _⟩ => show win0_0.index t (0 : Fin 2) * 5000 + 1 * p.val = r.val; rw [e00, hr]; omega
  | ⟨1, _⟩ => show win0_0.index t (1 : Fin 2) * 128 + 1 * cc.val = cc.val; rw [e01]; omega

/-- The second input's block at point t is slice t % 3 of the array it is cut from. -/
theorem blk1_read (A : FVec Ideal S3x128x128 .f32) (t : Fin cfg0.N) (cc q : Fin 128) (k : Fin 3)
    (hk : k.val = t.val % 3) :
    ((cfg0.win 1).blk t).view.read (Elt Ideal) A (ix3 (0 : Fin 1) cc q) = A (ix3 k cc q) := by
  obtain ⟨-, -, -, -, -, e10, e11, e12⟩ := idx_facts t
  rw [View.read_apply]
  show A _ = A _
  congr 1
  funext a
  apply Fin.ext
  match a with
  | ⟨0, _⟩ => show win0_1.index t (0 : Fin 3) * 1 + 1 * 0 = k.val; rw [e10, hk]; omega
  | ⟨1, _⟩ => show win0_1.index t (1 : Fin 3) * 128 + 1 * cc.val = cc.val; rw [e11]; omega
  | ⟨2, _⟩ => show win0_1.index t (2 : Fin 3) * 128 + 1 * q.val = q.val; rw [e12]; omega

/-- The output's block at point t, read off an array, at the block's index j: the array at slice t % 3, row
    (t / 3) · 5000 + j 1, column j 2. -/
theorem blk2_read (A : FVec Ideal S3x50000x128 .f32) (t : Fin cfg0.N) (j : ((cfg0.win 2).xblock (grid0.coords t)).Idx)
    (k : Fin 3) (r : Fin 50000) (q : Fin 128)
    (hk : k.val = t.val % 3) (hr : r.val = t.val / 3 * 5000 + (j 1).val) (hq : q.val = (j 2).val) :
    ((cfg0.win 2).blk t).view.read (Elt Ideal) A j = A (ix3 k r q) := by
  obtain ⟨e20, e21, e22, -⟩ := idx_facts t
  have hj0 : (j 0).val < 1 := (j 0).isLt
  rw [View.read_apply]
  show A _ = A _
  congr 1
  funext a
  apply Fin.ext
  match a with
  | ⟨0, _⟩ => show win0_2.index t (0 : Fin 3) * 1 + 1 * (j 0).val = k.val; rw [e20, hk]; omega
  | ⟨1, _⟩ => show win0_2.index t (1 : Fin 3) * 5000 + 1 * (j 1).val = r.val; rw [e21, hr]; omega
  | ⟨2, _⟩ => show win0_2.index t (2 : Fin 3) * 128 + 1 * (j 2).val = q.val; rw [e22, hq]; omega

/-- The output's staging buffer cut to what point t writes back, at the block's index j: the buffer at j's
    coordinates (the block is the whole buffer). -/
theorem cut2_apply (X : FVec Ideal S1x5000x128 .f32) (t : Fin cfg0.N) (j : ((cfg0.win 2).xblock (grid0.coords t)).Idx)
    (u : Fin 1) (p : Fin 5000) (q : Fin 128) (hu : u.val = (j 0).val) (hp : p.val = (j 1).val) (hq : q.val = (j 2).val) :
    (cfg0.win 2).cut (grid0.coords t) X j = X (ix3 u p q) := by
  show X _ = X _
  congr 1
  funext a
  apply Fin.ext
  match a with
  | ⟨0, _⟩ => exact hu.symm
  | ⟨1, _⟩ => exact hp.symm
  | ⟨2, _⟩ => exact hq.symm

/-! ## What a point writes back -/

/-- Over any two arrays x, W and at any point t: the stored value of the two input blocks, cut to the output's block,
    is the output's block of the array of the three products. -/
theorem tile_eq (x : FVec Ideal S50000x128 .f32) (W : FVec Ideal S3x128x128 .f32) (t : Fin cfg0.N) :
    (cfg0.win 2).cut (grid0.coords t)
        (k0_pay1 (F := Ideal) (((cfg0.win 0).blk t).view.read (Elt Ideal) x) (((cfg0.win 1).blk t).view.read (Elt Ideal) W))
      = ((cfg0.win 2).blk t).view.read (Elt Ideal) (Spec.Gh x W) := by
  funext j
  have hN : cfg0.N = 30 := N_0
  have ht : t.val < 30 := hN ▸ t.isLt
  have hj0 : (j 0).val < 1 := (j 0).isLt
  have hj1 : (j 1).val < 5000 := (j 1).isLt
  have hj2 : (j 2).val < 128 := (j 2).isLt
  refine (cut2_apply _ t j ⟨(j 0).val, hj0⟩ ⟨(j 1).val, hj1⟩ ⟨(j 2).val, hj2⟩ rfl rfl rfl).trans ?_
  refine Eq.trans ?_ (blk2_read (Spec.Gh x W) t j ⟨t.val % 3, by omega⟩ ⟨t.val / 3 * 5000 + (j 1).val, by omega⟩
    ⟨(j 2).val, hj2⟩ rfl rfl rfl).symm
  refine (pay_apply _ _ _ _ _).trans ?_
  rw [Spec.Gh_apply]
  refine Finset.sum_congr rfl fun cc _ => ?_
  exact congrArg₂ (· * ·)
    (blk0_read x t ⟨(j 1).val, hj1⟩ cc ⟨t.val / 3 * 5000 + (j 1).val, by omega⟩ rfl)
    (blk1_read W t cc ⟨(j 2).val, hj2⟩ ⟨t.val % 3, by omega⟩ rfl)

theorem hz2 : (![0, 0] : Fin 2 → Nat) = fun _ => 0 := funext fun a => by fin_cases a <;> rfl
theorem hz3 : (![0, 0, 0] : Fin 3 → Nat) = fun _ => 0 := funext fun a => by fin_cases a <;> rfl

variable (m : (ℓ : Loc nD τ sig) → Buf (Elt Ideal) ℓ)

/-- What point t writes back is block t of the array of the three products of the launch contents: the body's one
    store covers the whole staging buffer, its two loads read the whole input buffers, and those hold the input
    windows' blocks of the arrays as launched (no host line precedes the region). -/
theorem flushed_eq (c : Dev nD) (t : Fin cfg0.N) :
    (Fr.dats (F := Ideal) m 0 c).flushed 2 t
      = ((cfg0.win 2).blk t).view.read (Elt Ideal)
          (Spec.Gh (m ((c.tc : Thread nD τ).loc main_arg0)) (m ((c.tc : Thread nD τ).loc main_arg1))) := by
  show (cfg0.win 2).cut (grid0.coords t) ((Fr.dats (F := Ideal) m 0 c).after 2 t) = _
  rw [Fr.after0_2]
  unfold Fr.out0_2
  rw [View.canon_unit_zero hz3]
  simp only [View.ld_unit_zero (S := S5000x128) hz2, View.ld_unit_zero (S := S1x128x128) hz3]
  unfold Fr.iblk
  exact tile_eq (m ((c.tc : Thread nD τ).loc main_arg0)) (m ((c.tc : Thread nD τ).loc main_arg1)) t

/-! ## The blocks tile the result -/

/-- An index of the result is in point t's block iff each coordinate is in the block's range on its axis. -/
theorem mem_blk (t : Fin cfg0.N) (i : S3x50000x128.Idx) :
    i ∈ ((cfg0.win 2).blk t).view.set ↔ ∀ a : Fin 3, win0_2.index t a * S1x5000x128.size a ≤ (i a).val
      ∧ (i a).val < win0_2.index t a * S1x5000x128.size a + S1x5000x128.size a := by
  show i ∈ ((View.whole main_v0).slice (win0_2.rect t)).set ↔ _
  rw [View.set_slice_whole, Rect.mem_set_unit]
  exact Iff.rfl

/-- Entry (k, r, j) lies in the block of point (r / 5000) · 3 + k, and every point writes back. -/
theorem cover (i : S3x50000x128.Idx) :
    ∃ t : Fin cfg0.N, (cfg0.win 2).flush t = true ∧ i ∈ ((cfg0.win 2).blk t).view.set := by
  have hN : cfg0.N = 30 := N_0
  have h0 : (i 0).val < 3 := (i 0).isLt
  have h1 : (i 1).val < 50000 := (i 1).isLt
  have h2 : (i 2).val < 128 := (i 2).isLt
  have hlt : (i 1).val / 5000 * 3 + (i 0).val < cfg0.N := by rw [hN]; omega
  obtain ⟨t, htv⟩ : ∃ t : Fin cfg0.N, t.val = (i 1).val / 5000 * 3 + (i 0).val := ⟨⟨_, hlt⟩, rfl⟩
  obtain ⟨e20, e21, e22, -⟩ := idx_facts t
  refine ⟨t, flush0_2 t, ?_⟩
  rw [mem_blk]
  intro a
  match a with
  | ⟨0, _⟩ =>
    show win0_2.index t (0 : Fin 3) * 1 ≤ (i 0).val ∧ (i 0).val < win0_2.index t (0 : Fin 3) * 1 + 1
    rw [e20, htv]; omega
  | ⟨1, _⟩ =>
    show win0_2.index t (1 : Fin 3) * 5000 ≤ (i 1).val ∧ (i 1).val < win0_2.index t (1 : Fin 3) * 5000 + 5000
    rw [e21, htv]; omega
  | ⟨2, _⟩ =>
    show win0_2.index t (2 : Fin 3) * 128 ≤ (i 2).val ∧ (i 2).val < win0_2.index t (2 : Fin 3) * 128 + 128
    rw [e22]; omega

/-! ## The result array -/

/-- after the region's 30 points the result array holds the three matrix products: entry (k, r, j) = Σ_c x (r, c) · W (k, c, j) -/
theorem final_v0 (c : Dev nD) :
    (Fr.dats (F := Ideal) m 0 c).arrAt 2 cfg0.N
      = Spec.Gh (m ((c.tc : Thread nD τ).loc main_arg0)) (m ((c.tc : Thread nD τ).loc main_arg1)) :=
  (Fr.dats (F := Ideal) m 0 c).arrAt_eq_of_cover 2
    (Spec.Gh (m ((c.tc : Thread nD τ).loc main_arg0)) (m ((c.tc : Thread nD τ).loc main_arg1)))
    (fun t _ => flushed_eq m c t) cover

end Cert.KernelIdeal.RegionValue

end
-- ==== Proof.KernelResult.lean ====
/-
  The idealized kernel's run with its result named.

  The frame run ends with the region's result array at what the region's thirty points wrote and every other buffer as
  the host lines after the region leave it. Those lines compute, from ANY contents of the buffers, the shared host
  computation (`Spec.tail`) of the three [50000, 128] slices of the region's result, the edge array and the weight
  array; the region's result is the array of the three matrix products (`Spec.Gh`); the edge and weight arrays are no
  array of the region and no line writes them. So the result buffer ends at `Spec.tail` of the three slices of `Spec.Gh`
  of the first two arguments, and of the last two arguments.
-/
import proofs.«108761_j13125420057165_1_alg».proof.Proof.FrameIdeal
import proofs.«108761_j13125420057165_1_alg».proof.Proof.HostTail
import proofs.«108761_j13125420057165_1_alg».proof.Proof.TailRead
import proofs.«108761_j13125420057165_1_alg».proof.Proof.RegionValue

noncomputable section

namespace Cert.KernelIdeal.Result

open Idealize.ShloMosaic Idealize.ShloMosaic.TcCoe Idealize.SL.Sem Cert.KernelIdeal Cert.KernelIdeal.Gen
open Idealize.ShloMosaic.Pipeline (Dat)

variable (m : (ℓ : Loc nD τ sig) → Buf (Elt Ideal) ℓ) (ρ : Dev nD → PrngReg)

/-- What the lines after the region leave in the result buffer: the shared host computation of the three slices of
    the region's result array as the region left it, the edge array and the weight array as launched. -/
theorem result_tail (c : Dev nD) :
    Pipeline.afterTail₀ cfgs (Fr.dats (F := Ideal) m) 0 (Fr.V0 m) [hostOps1] c main_v67
      = Spec.tail (Spec.hsl0 ((Fr.dats (F := Ideal) m 0 c).arrAt 2 cfg0.N)) (Spec.hsl1 ((Fr.dats (F := Ideal) m 0 c).arrAt 2 cfg0.N))
          (Spec.hsl2 ((Fr.dats (F := Ideal) m 0 c).arrAt 2 cfg0.N))
          (m ((c.tc : Thread nD τ).loc main_arg2)) (m ((c.tc : Thread nD τ).loc main_arg3)) := by
  unfold Pipeline.afterTail₀
  rw [show ([hostOps1] : List (List (HloOp τ sig (Elt Ideal)))).flatten = hostOps1 from by
    simp only [List.flatten_cons, List.flatten_nil, List.append_nil]]
  rw [TailRead.tail_read]
  have e0 : Pipeline.withArrays spec0 c (Fr.V0 m c) (fun w => (Fr.dats (F := Ideal) m 0 c).arrAt w cfg0.N) (Proc.devRef .tc main_v0)
      = (Fr.dats (F := Ideal) m 0 c).arrAt 2 cfg0.N :=
    Pipeline.withArrays_arr spec0 launch0.win.arr_inj c (Fr.V0 m c) (fun w => (Fr.dats (F := Ideal) m 0 c).arrAt w cfg0.N) 2
  have e2 : Pipeline.withArrays spec0 c (Fr.V0 m c) (fun w => (Fr.dats (F := Ideal) m 0 c).arrAt w cfg0.N) (Proc.devRef .tc main_arg2)
      = m ((c.tc : Thread nD τ).loc main_arg2) :=
    Pipeline.withArrays_of_ne spec0 c (Fr.V0 m c) _ main_arg2 (by decide)
  have e3 : Pipeline.withArrays spec0 c (Fr.V0 m c) (fun w => (Fr.dats (F := Ideal) m 0 c).arrAt w cfg0.N) (Proc.devRef .tc main_arg3)
      = m ((c.tc : Thread nD τ).loc main_arg3) :=
    Pipeline.withArrays_of_ne spec0 c (Fr.V0 m c) _ main_arg3 (by decide)
  exact congr (congr (congr (congr (congrArg Spec.tail (congrArg Spec.hsl0 e0)) (congrArg Spec.hsl1 e0)) (congrArg Spec.hsl2 e0)) e2) e3

/-- The kernel's run: it terminates with the result buffer at the shared host computation of the three matrix products and
    the arguments unchanged. -/
theorem run_result : θ_run defs (onTc (τ := τ) (main (F := Ideal))) ⟨m, fun _ => 0, ρ⟩ (fun r => ∀ c : Dev nD,
      r.2.mem ((c.tc : Thread nD τ).loc main_v67)
        = Spec.tail (Spec.hsl0 (Spec.Gh (m ((c.tc : Thread nD τ).loc main_arg0)) (m ((c.tc : Thread nD τ).loc main_arg1))))
            (Spec.hsl1 (Spec.Gh (m ((c.tc : Thread nD τ).loc main_arg0)) (m ((c.tc : Thread nD τ).loc main_arg1))))
            (Spec.hsl2 (Spec.Gh (m ((c.tc : Thread nD τ).loc main_arg0)) (m ((c.tc : Thread nD τ).loc main_arg1))))
            (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h c).2 main_v67 (Pipeline.mem_restRefs_of main_v67 (by decide) (by decide))).trans
      ((result_tail m c).trans (by rw [RegionValue.final_v0])),
    ((h c).1 0).trans (((Fr.dats m 0 c).arrAt_in 0 rfl _).trans ((Fr.A_eq m c 0).trans (Fr.V_main_arg0 m c))),
    ((h c).1 1).trans (((Fr.dats m 0 c).arrAt_in 1 rfl _).trans ((Fr.A_eq m c 1).trans (Fr.V_main_arg1 m c))),
    ((h c).2 main_arg2 (Pipeline.mem_restRefs_of main_arg2 (by decide) (by decide))).trans (Fr.W_main_arg2 m (Fr.dats m) c),
    ((h c).2 main_arg3 (Pipeline.mem_restRefs_of main_arg3 (by decide) (by decide))).trans (Fr.W_main_arg3 m (Fr.dats m) c)⟩)
    (Fr.run_main (F := Ideal) m ρ)

end Cert.KernelIdeal.Result

end
-- ==== Proof.RefSide.lean ====
/-
  The reference's side of the bridge.

  The reference computes three whole matrix products, h_k = x · W[k] for k = 0, 1, 2, where W[k] is slice k of the
  [3, 128, 128] weight array read as a [128, 128] matrix, and then runs the shared host computation on them. The
  kernel's region result is the [3, 50000, 128] array whose entry (k, r, j) is the sum over c of x (r, c) · W (k, c, j),
  and its row table k is slice k of that array read as a [50000, 128] matrix.

  Entry (r, j) of h_k is the sum over the contracted coordinate c of x (r, c) times entry (c, j) of W[k]; cutting slice
  k out of an array and dropping the leading unit axis reads entry (k, c, j) of the array, so that factor is W (k, c, j).
  Entry (r, j) of row table k is entry (k, r, j) of the region result, which is the same sum. The two sums have the same
  terms, one by one, so no law of the extended reals beyond equality of terms is used and no finiteness is needed.

  The reference's whole result is then the shared host computation applied to its three products, its edge array and
  its weight array: the two texts agree operation by operation.
-/
import proofs.«108761_j13125420057165_1_alg».proof.Proof.Gen.ReferenceIdeal.Run
import proofs.«108761_j13125420057165_1_alg».proof.Proof.HostTail
import proofs.«108761_j13125420057165_1_alg».proof.Proof.LibTileMatmul
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.ReferenceIdeal.RefSide

open Idealize.ShloMosaic Idealize.ShloMosaic.TcCoe Idealize.SL.Sem Idealize.ShloMosaic.ValueIdx
open Cert.ReferenceIdeal Cert.ReferenceIdeal.Gen

/-- Slice `k` of an [n, a, b] array (a cut of one layer at offset (o, 0, 0) with `o = k`), read as an [a, b] matrix,
    has at (i, j) the array's entry (k, i, j). -/
theorem sliceLead_apply {α : Type} {n a b : Nat} (X : (⟨3, ![n, a, b]⟩ : Shape).Idx → α) (o : Nat) (k : Fin n)
    (hk : k.val = o) (hs : (⟨3, ![n, a, b]⟩ : Shape).Slices ![o, 0, 0] ⟨3, ![1, a, b]⟩)
    (hc : (⟨3, ![1, a, b]⟩ : Shape).ShapeCasts ⟨2, ![a, b]⟩) (i : Fin a) (j : Fin b) :
    shapeCast ⟨2, ![a, b]⟩ (extractStridedSlice ⟨3, ![1, a, b]⟩ ![o, 0, 0] X hs) hc (ix2 i j) = X (ix3 k i j) := by
  refine (shapeCast_1ab_ab_apply _ hc i j).trans ?_
  exact extractStridedSlice_apply _ X hs (ix3 (0 : Fin 1) i j) (ix3 k i j) (fun ax => by
    match ax with
    | ⟨0, _⟩ => exact hk.trans (Nat.add_zero o).symm
    | ⟨1, _⟩ => exact (Nat.zero_add _).symm
    | ⟨2, _⟩ => exact (Nat.zero_add _).symm)

/-- The product of `x` with slice `k` of `W` is slice `k` of the array of all three products: at (r, j) both are
    the sum over c of x (r, c) · W (k, c, j). -/
theorem dot_slice_eq (x : FVec Ideal ⟨2, ![50000, 128]⟩ .f32) (W : FVec Ideal ⟨3, ![3, 128, 128]⟩ .f32)
    (o : Nat) (k : Fin 3) (hk : k.val = o)
    (w : DotDims.WF ⟨2, ![50000, 128]⟩ ⟨2, ![128, 128]⟩ ⟨2, ![50000, 128]⟩ [1] [0] [0] [1] [] [])
    (hsW : (⟨3, ![3, 128, 128]⟩ : Shape).Slices ![o, 0, 0] ⟨3, ![1, 128, 128]⟩)
    (hcW : (⟨3, ![1, 128, 128]⟩ : Shape).ShapeCasts ⟨2, ![128, 128]⟩)
    (hsV : (⟨3, ![3, 50000, 128]⟩ : Shape).Slices ![o, 0, 0] ⟨3, ![1, 50000, 128]⟩)
    (hcV : (⟨3, ![1, 50000, 128]⟩ : Shape).ShapeCasts ⟨2, ![50000, 128]⟩) :
    Host.dotGeneral (F := Ideal) (TileMatmul.plainDims w) none x
        (shapeCast ⟨2, ![128, 128]⟩ (extractStridedSlice ⟨3, ![1, 128, 128]⟩ ![o, 0, 0] W hsW) hcW)
      = shapeCast ⟨2, ![50000, 128]⟩
          (extractStridedSlice ⟨3, ![1, 50000, 128]⟩ ![o, 0, 0] (Cert.KernelIdeal.Spec.Gh x W) hsV) hcV := by
  funext i
  obtain ⟨r, j, rfl⟩ : ∃ (r : Fin 50000) (j : Fin 128), i = ix2 r j := ⟨i 0, i 1, eq_ix2 i⟩
  refine (TileMatmul.dotGeneral_apply w none x _ r j).trans ?_
  refine Eq.trans ?_ (sliceLead_apply (Cert.KernelIdeal.Spec.Gh x W) o k hk hsV hcV r j).symm
  refine (Finset.sum_congr rfl fun c _ => ?_).trans (Cert.KernelIdeal.Spec.Gh_apply x W k r j).symm
  rw [sliceLead_apply W o k hk hsW hcW c j]

/-- The reference's matrix product with slice 0 of W is slice 0 of the kernel's region result. -/
theorem dot_eq_hsl0 (x : FVec Ideal S50000x128 .f32) (W : FVec Ideal S3x128x128 .f32) :
    Host.dotGeneral (F := Ideal) dot_S50000x128_S128x128_S50000x128_1_0_0_1_n_n none x
      (shapeCast S128x128 (extractStridedSlice S1x128x128 ![0, 0, 0] W slices_S3x128x128_S1x128x128_0_0_0) shapeCasts_S1x128x128_S128x128)
    = Cert.KernelIdeal.Spec.hsl0 (F := Ideal) (Cert.KernelIdeal.Spec.Gh x W) :=
  dot_slice_eq x W 0 0 rfl _ _ _ _ _

/-- The same for slice 1. -/
theorem dot_eq_hsl1 (x : FVec Ideal S50000x128 .f32) (W : FVec Ideal S3x128x128 .f32) :
    Host.dotGeneral (F := Ideal) dot_S50000x128_S128x128_S50000x128_1_0_0_1_n_n none x
      (shapeCast S128x128 (extractStridedSlice S1x128x128 ![1, 0, 0] W slices_S3x128x128_S1x128x128_1_0_0) shapeCasts_S1x128x128_S128x128)
    = Cert.KernelIdeal.Spec.hsl1 (F := Ideal) (Cert.KernelIdeal.Spec.Gh x W) :=
  dot_slice_eq x W 1 1 rfl _ _ _ _ _

/-- The same for slice 2. -/
theorem dot_eq_hsl2 (x : FVec Ideal S50000x128 .f32) (W : FVec Ideal S3x128x128 .f32) :
    Host.dotGeneral (F := Ideal) dot_S50000x128_S128x128_S50000x128_1_0_0_1_n_n none x
      (shapeCast S128x128 (extractStridedSlice S1x128x128 ![2, 0, 0] W slices_S3x128x128_S1x128x128_2_0_0) shapeCasts_S1x128x128_S128x128)
    = Cert.KernelIdeal.Spec.hsl2 (F := Ideal) (Cert.KernelIdeal.Spec.Gh x W) :=
  dot_slice_eq x W 2 2 rfl _ _ _ _ _

/-- The reference's result is the shared host computation of its three matrix products, its edge array and its weight
    array: the reference's text is that computation operation by operation, and each product is the kernel's row table
    by the three lemmas above. -/
theorem res_eq (m : (ℓ : Loc nD τ sig) → Buf (Elt Ideal) ℓ) (c : Dev nD) :
    Cert.ReferenceIdeal.Value.res_main_v69 (F := Ideal) m c
      = Cert.KernelIdeal.Spec.tail (F := Ideal)
          (Cert.KernelIdeal.Spec.hsl0 (F := Ideal) (Cert.KernelIdeal.Spec.Gh (m ((c.tc : Thread nD τ).loc main_arg0)) (m ((c.tc : Thread nD τ).loc main_arg1))))
          (Cert.KernelIdeal.Spec.hsl1 (F := Ideal) (Cert.KernelIdeal.Spec.Gh (m ((c.tc : Thread nD τ).loc main_arg0)) (m ((c.tc : Thread nD τ).loc main_arg1))))
          (Cert.KernelIdeal.Spec.hsl2 (F := Ideal) (Cert.KernelIdeal.Spec.Gh (m ((c.tc : Thread nD τ).loc main_arg0)) (m ((c.tc : Thread nD τ).loc main_arg1))))
          (m ((c.tc : Thread nD τ).loc main_arg2)) (m ((c.tc : Thread nD τ).loc main_arg3)) := by
  rw [← dot_eq_hsl0 (m ((c.tc : Thread nD τ).loc main_arg0)) (m ((c.tc : Thread nD τ).loc main_arg1)),
    ← dot_eq_hsl1 (m ((c.tc : Thread nD τ).loc main_arg0)) (m ((c.tc : Thread nD τ).loc main_arg1)),
    ← dot_eq_hsl2 (m ((c.tc : Thread nD τ).loc main_arg0)) (m ((c.tc : Thread nD τ).loc main_arg1))]
  unfold Cert.ReferenceIdeal.Value.res_main_v69
  rfl

end Cert.ReferenceIdeal.RefSide

end
-- ==== Proof.lean ====
/-
  A graph convolution over three weighted edge sets: out = Σ_k scatter_add (gather (x · W_k, src_k) · w_k, dst_k).

  The kernel computes the three matrix products x · W_k in ONE region — a 10 × 3 grid, each point the product of a
  5000-row tile of x with the 128 × 128 slice k of W, its operands rounded to bf16 on the way in, which at the ideal
  instance is the identity — into a [3, 50000, 128] array, and then, on the host, slices that array and gathers, scales,
  scatter-adds and sums. The reference computes each x · W_k by one whole matrix product and then the same host
  computation.

  At the ideal instance entry (k, r, j) of the region's result is Σ_c x (r, c) · W (k, c, j): the sum a tile's product
  into the zero accumulator has at a row is the sum the whole product has at that row, with literally the same terms,
  so no algebraic law is needed and the precondition (finite inputs) is never opened. Both programs then apply ONE
  function, `Spec.tail`, to three equal row tables, the same edge array and the same weight array.

  The frames: each kernel program's region runs to its end at every point and its host lines write only their own result
  buffers (`Fr.frame`, for the word-level program and for the idealized one); the reference is a straight line of host
  operations (its generated run). The ideal pass rewrote nothing, so `preserves` is `True`.
-/
import proofs.«108761_j13125420057165_1_alg».proof.Defs
import proofs.«108761_j13125420057165_1_alg».proof.Proof.Gen.Kernel
import proofs.«108761_j13125420057165_1_alg».proof.Proof.Gen.Kernel.Skeleton
import proofs.«108761_j13125420057165_1_alg».proof.Proof.Gen.Kernel.Launch
import proofs.«108761_j13125420057165_1_alg».proof.Proof.Gen.Kernel.Points
import proofs.«108761_j13125420057165_1_alg».proof.Proof.Gen.KernelIdeal
import proofs.«108761_j13125420057165_1_alg».proof.Proof.Gen.KernelIdeal.Skeleton
import proofs.«108761_j13125420057165_1_alg».proof.Proof.Gen.KernelIdeal.Launch
import proofs.«108761_j13125420057165_1_alg».proof.Proof.Gen.KernelIdeal.Points
import proofs.«108761_j13125420057165_1_alg».proof.Proof.Gen.ReferenceIdeal
import proofs.«108761_j13125420057165_1_alg».proof.Proof.Gen.Pre_finite_inputs
import proofs.«108761_j13125420057165_1_alg».proof.Proof.Gen.ReferenceIdeal.Run
import proofs.«108761_j13125420057165_1_alg».proof.Proof.Gen.ReferenceIdeal.Read
import proofs.«108761_j13125420057165_1_alg».proof.Proof.FrameBits
import proofs.«108761_j13125420057165_1_alg».proof.Proof.FrameIdeal
import proofs.«108761_j13125420057165_1_alg».proof.Proof.KernelResult
import proofs.«108761_j13125420057165_1_alg».proof.Proof.RefSide
import Idealize.ShloMosaic.Adequacy
import Idealize.ShloMosaic.Init

noncomputable section

namespace Cert.Proof

open Idealize.ShloMosaic Idealize.SL.Sem

/-- The word-level kernel runs, and its argument arrays end unchanged. -/
theorem frame_k : Cert.frame_Kernel := fun m ρ _ => Cert.Kernel.Fr.frame m ρ

/-- The idealized kernel likewise. -/
theorem frame_ki : Cert.frame_KernelIdeal := fun m ρ _ => Cert.KernelIdeal.Fr.frame m ρ

/-- The reference is a straight line of host operations: its run, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- From memories agreeing on the arguments both programs end with the shared host computation of the three matrix
    products: the kernel's three slices of its region's result, the reference's three whole products, are the same row
    tables. -/
theorem algebraic : Cert.algebraic_KernelIdeal_ReferenceIdeal := by
  intro m ρ m' ρ' _ hagree
  refine ⟨_, Cert.KernelIdeal.Result.run_result m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.RefSide.res_eq, (hagree c).1, (hagree c).2.1, (hagree c).2.2.1, (hagree c).2.2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
